-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S16384x64 : Shape := ⟨2, ![16384, 64]⟩
abbrev S16384 : Shape := ⟨1, ![16384]⟩
abbrev S8192 : Shape := ⟨1, ![8192]⟩
abbrev S1048576 : Shape := ⟨1, ![1048576]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S16384 : S_.BroadcastsInDim S16384 (![] : Fin 0 → Fin S16384.rank)
  reducesTo_S16384_S_d0 : S16384.ReducesTo [0] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x64 .f32) (main_arg1 : FVec F S8192x64 .f32) (main_arg2 : FVec F S16384x64 .f32) (main_arg3 : FVec F S16384 .f32) (main_arg4 : FVec F S8192 .f32) (main_arg5 : IVec S1048576 32) (main_arg6 : IVec S1048576 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S16384x64 .f32 := Host.absf main_arg2
  let main_cst_2 : FVec F S_ .f32 := constant S_ .f32 0x7F800000#32
  let main_v10 : FVec F S16384x64 .f32 := broadcastInDim S16384x64 ![] bcast_S_S16384x64 main_cst_2
  let main_v11 : IVec S16384x64 1 := cmpf .olt main_v9 main_v10
  let main_c_3 : IVec S_ 1 := constantI S_ 1 1#1
  let main_v12 : IVec S_ 1 := (fun x v => Host.reduce IntOp.andi x v reducesTo_S16384x64_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_v13 main_v16
-- ==== Kernel.lean ====
abbrev S8192x64 : Shape := ⟨2, ![8192, 64]⟩
abbrev S16384x64 : Shape := ⟨2, ![16384, 64]⟩
abbrev S16384 : Shape := ⟨1, ![16384]⟩
abbrev S8192 : Shape := ⟨1, ![8192]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S16384x1 : Shape := ⟨2, ![16384, 1]⟩
abbrev S1x8192 : Shape := ⟨2, ![1, 8192]⟩
abbrev S16384x8192 : Shape := ⟨2, ![16384, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩
abbrev S1x16384x8192 : Shape := ⟨3, ![1, 16384, 8192]⟩

abbrev nBuf : Space → Nat
  | .hbm => 35
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S16384x64, .f32⟩
  | .hbm, ⟨3, _⟩ => ⟨S16384, .f32⟩
  | .hbm, ⟨4, _⟩ => ⟨S8192, .f32⟩
  | .hbm, ⟨5, _⟩ => ⟨S1048576, .i32⟩
  | .hbm, ⟨6, _⟩ => ⟨S1048576, .i32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S16384, .f32⟩
  | .hbm, ⟨11, _⟩ => ⟨S1048576x1, .i32⟩
  | .hbm, ⟨12, _⟩ => ⟨S16384, .f32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x64, .f32⟩
  | .hbm, ⟨22, _⟩ => ⟨S_, .f32⟩
  | .hbm, ⟨23, _⟩ => ⟨S16384x64, .f32⟩
  | .hbm, ⟨24, _⟩ => ⟨S1048576x1, .i32⟩
  | .hbm, ⟨25, _⟩ => ⟨S16384x64, .f32⟩
  | .hbm, ⟨26, _⟩ => ⟨S16384, .f32⟩
  | .hbm, ⟨27, _⟩ => ⟨S16384x1, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x1, .f32⟩
  | .hbm, ⟨32, _⟩ => ⟨S1x8192, .f32⟩
  | .hbm, ⟨33, _⟩ => ⟨S16384x8192, .f32⟩
  | .hbm, ⟨34, _⟩ => ⟨S1x16384x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S1048576 : S_.BroadcastsInDim S1048576 (![] : Fin 0 → Fin S1048576.rank)
  bcast_S_S16384 : S_.BroadcastsInDim S16384 (![] : Fin 0 → Fin S16384.rank)
  bcast_S1048576_S1048576x1_0 : S1048576.BroadcastsInDim S1048576x1 (![0] : Fin 1 → Fin S1048576x1.rank)
  bcast_S_S16384x64 : S_.BroadcastsInDim S16384x64 (![] : Fin 0 → Fin S16384x64.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  shapeCasts_S16384_S16384x1 : S16384.ShapeCasts S16384x1
  shapeCasts_S8192_S1x8192 : S8192.ShapeCasts S1x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  bcast_S16384x8192_S1x16384x8192_1_2 : S16384x8192.BroadcastsInDim S1x16384x8192 (![1, 2] : Fin 2 → Fin S1x16384x8192.rank)
  scatter_S16384_S1048576x1_S1048576_n_0_0_1_wf : ScatterDims.WF S16384 S1048576x1 S1048576 [] [0] [0] 1
  gather_S8192x64_S1048576x1_S1048576x64_1_0_n_n_0_1_164_wf : GatherDims.WF S8192x64 S1048576x1 S1048576x64 [1] [0] [] [0] [] 1 ![1, 64]
  scatter_S16384x64_S1048576x1_S1048576x64_1_0_0_1_wf : ScatterDims.WF S16384x64 S1048576x1 S1048576x64 [1] [0] [0] 1
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x8192.size a
  hwx0_4 : ∀ i : grid0.Coords, EltTy.bits .f32 = 32 ∨ (Rect.block (s := S16384x8192) S1024x1024.size (cc0_transform_4 i) (hinb0_4 i)).WholeWords (EltTy.packing .f32)

variable [Facts₀]

def scatter_S16384_S1048576x1_S1048576_n_0_0_1 : ScatterDims S16384 S1048576x1 S1048576 where
  updateWindowDims := []
  insertedWindowDims := [0]
  scatterDimsToOperandDims := [0]
  indexVectorDim := 1
  wf := scatter_S16384_S1048576x1_S1048576_n_0_0_1_wf
def gather_S8192x64_S1048576x1_S1048576x64_1_0_n_n_0_1_164 : GatherDims S8192x64 S1048576x1 S1048576x64 where
  offsetDims := [1]
  collapsedSliceDims := [0]
  operandBatchingDims := []
  startIndicesBatchingDims := []
  startIndexMap := [0]
  indexVectorDim := 1
  sliceSizes := ![1, 64]
  wf := gather_S8192x64_S1048576x1_S1048576x64_1_0_n_n_0_1_164_wf
def scatter_S16384x64_S1048576x1_S1048576x64_1_0_0_1 : ScatterDims S16384x64 S1048576x1 S1048576x64 where
  updateWindowDims := [1]
  insertedWindowDims := [0]
  scatterDimsToOperandDims := [0]
  indexVectorDim := 1
  wf := scatter_S16384x64_S1048576x1_S1048576x64_1_0_0_1_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_v18) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S16384x64 : Shape := ⟨2, ![16384, 64]⟩
abbrev S16384 : Shape := ⟨1, ![16384]⟩
abbrev S8192 : Shape := ⟨1, ![8192]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S16384x1 : Shape := ⟨2, ![16384, 1]⟩
abbrev S16384x8192 : Shape := ⟨2, ![16384, 8192]⟩
abbrev S1x8192 : Shape := ⟨2, ![1, 8192]⟩
abbrev S1x16384x8192 : Shape := ⟨3, ![1, 16384, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S16384x64, .f32⟩
  | .hbm, ⟨3, _⟩ => ⟨S16384, .f32⟩
  | .hbm, ⟨4, _⟩ => ⟨S8192, .f32⟩
  | .hbm, ⟨5, _⟩ => ⟨S1048576, .i32⟩
  | .hbm, ⟨6, _⟩ => ⟨S1048576, .i32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S16384, .f32⟩
  | .hbm, ⟨11, _⟩ => ⟨S1048576x1, .i32⟩
  | .hbm, ⟨12, _⟩ => ⟨S16384, .f32⟩
  | .hbm, ⟨13, _⟩ => ⟨S_, .i32⟩
  | .hbm, ⟨14, _⟩ => ⟨S1048576, .i32⟩
  | .hbm, ⟨15, _⟩ => ⟨S1048576, .i1⟩
  | .hbm, ⟨16, _⟩ => ⟨S_, .i32⟩
  | .hbm, ⟨17, _⟩ => ⟨S1048576, .i32⟩
  | .hbm, ⟨18, _⟩ => ⟨S1048576, .i32⟩
  | .hbm, ⟨19, _⟩ => ⟨S1048576, .i32⟩
  | .hbm, ⟨20, _⟩ => ⟨S1048576x1, .i32⟩
  | .hbm, ⟨21, _⟩ => ⟨S1048576x64, .f32⟩
  | .hbm, ⟨22, _⟩ => ⟨S_, .f32⟩
  | .hbm, ⟨23, _⟩ => ⟨S16384x64, .f32⟩
  | .hbm, ⟨24, _⟩ => ⟨S1048576x1, .i32⟩
  | .hbm, ⟨25, _⟩ => ⟨S16384x64, .f32⟩
  | .hbm, ⟨26, _⟩ => ⟨S16384, .f32⟩
  | .hbm, ⟨27, _⟩ => ⟨S16384x1, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x8192, .f32⟩
  | .hbm, ⟨32, _⟩ => ⟨S16384x1, .f32⟩
  | .hbm, ⟨33, _⟩ => ⟨S16384x8192, .f32⟩
  | .hbm, ⟨34, _⟩ => ⟨S16384x8192, .f32⟩
  | .hbm, ⟨35, _⟩ => ⟨S1x8192, .f32⟩
  | .hbm, ⟨36, _⟩ => ⟨S16384x8192, .f32⟩
  | .hbm, ⟨37, _⟩ => ⟨S16384x8192, .f32⟩
  | .hbm, ⟨38, _⟩ => ⟨S_, .f32⟩
  | .hbm, ⟨39, _⟩ => ⟨S16384x8192, .f32⟩
  | .hbm, ⟨40, _⟩ => ⟨S16384x8192, .f32⟩
  | .hbm, ⟨41, _⟩ => ⟨S16384x8192, .f32⟩
  | .hbm, ⟨42, _⟩ => ⟨S16384x8192, .f32⟩
  | .hbm, ⟨43, _⟩ => ⟨S_, .f32⟩
  | .hbm, ⟨44, _⟩ => ⟨S16384x8192, .f32⟩
  | .hbm, ⟨45, _⟩ => ⟨S16384x8192, .f32⟩
  | .hbm, ⟨46, _⟩ => ⟨S_, .f32⟩
  | .hbm, ⟨47, _⟩ => ⟨S16384x8192, .f32⟩
  | .hbm, ⟨48, _⟩ => ⟨S16384x8192, .f32⟩
  | .hbm, ⟨49, _⟩ => ⟨S_, .f32⟩
  | .hbm, ⟨50, _⟩ => ⟨S16384x8192, .f32⟩
  | .hbm, ⟨51, _⟩ => ⟨S16384x8192, .f32⟩
  | .hbm, ⟨52, _⟩ => ⟨S1x16384x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S16384 : S_.BroadcastsInDim S16384 (![] : Fin 0 → Fin S16384.rank)
  bcast_S1048576_S1048576x1_0 : S1048576.BroadcastsInDim S1048576x1 (![0] : Fin 1 → Fin S1048576x1.rank)
  bcast_S_S16384x64 : S_.BroadcastsInDim S16384x64 (![] : Fin 0 → Fin S16384x64.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  bcast_S16384x1_S16384x8192_0_1 : S16384x1.BroadcastsInDim S16384x8192 (![0, 1] : Fin 2 → Fin S16384x8192.rank)
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  bcast_S16384x8192_S1x16384x8192_1_2 : S16384x8192.BroadcastsInDim S1x16384x8192 (![1, 2] : Fin 2 → Fin S1x16384x8192.rank)
  scatter_S16384_S1048576x1_S1048576_n_0_0_1_wf : ScatterDims.WF S16384 S1048576x1 S1048576 [] [0] [0] 1
  gather_S8192x64_S1048576x1_S1048576x64_1_0_n_n_0_1_164_wf : GatherDims.WF S8192x64 S1048576x1 S1048576x64 [1] [0] [] [0] [] 1 ![1, 64]
  scatter_S16384x64_S1048576x1_S1048576x64_1_0_0_1_wf : ScatterDims.WF S16384x64 S1048576x1 S1048576x64 [1] [0] [0] 1
  dot_S16384x64_S8192x64_S16384x8192_1_1_0_0_n_n_wf : DotDims.WF S16384x64 S8192x64 S16384x8192 [1] [1] [0] [0] [] []

variable [Facts₀]

def scatter_S16384_S1048576x1_S1048576_n_0_0_1 : ScatterDims S16384 S1048576x1 S1048576 where
  updateWindowDims := []
  insertedWindowDims := [0]
  scatterDimsToOperandDims := [0]
  indexVectorDim := 1
  wf := scatter_S16384_S1048576x1_S1048576_n_0_0_1_wf
def gather_S8192x64_S1048576x1_S1048576x64_1_0_n_n_0_1_164 : GatherDims S8192x64 S1048576x1 S1048576x64 where
  offsetDims := [1]
  collapsedSliceDims := [0]
  operandBatchingDims := []
  startIndicesBatchingDims := []
  startIndexMap := [0]
  indexVectorDim := 1
  sliceSizes := ![1, 64]
  wf := gather_S8192x64_S1048576x1_S1048576x64_1_0_n_n_0_1_164_wf
def scatter_S16384x64_S1048576x1_S1048576x64_1_0_0_1 : ScatterDims S16384x64 S1048576x1 S1048576x64 where
  updateWindowDims := [1]
  insertedWindowDims := [0]
  scatterDimsToOperandDims := [0]
  indexVectorDim := 1
  wf := scatter_S16384x64_S1048576x1_S1048576x64_1_0_0_1_wf
def dot_S16384x64_S8192x64_S16384x8192_1_1_0_0_n_n : DotDims S16384x64 S8192x64 S16384x8192 where
  lhsContracting := [1]
  rhsContracting := [1]
  lhsNonContracting := [0]
  rhsNonContracting := [0]
  lhsBatch := []
  rhsBatch := []
  wf := dot_S16384x64_S8192x64_S16384x8192_1_1_0_0_n_n_wf

class Facts : Prop extends Facts₀ where

variable [Facts]
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.Rating.lean ====
/-
  The predicted rating of a user for an item, as one function of the factor matrices and the biases.

  A user `u` has a row of 64 latent factors, an item `i` has a row of 64 latent factors, and each has a bias.
  The score of the pair is the inner product of the two rows plus the user's bias, plus the item's bias, plus the
  global mean (the extended real the f32 word 0x3D4CCCCD denotes, about 0.05); the rating is the logistic function
  of the score, times 5 (the value of the f32 word 0x40A00000). On the extended reals the sums are
  taken in the order written: first the inner product and the user's bias, then the item's bias, then the mean.
-/
import Idealize.ShloMosaic.PureOps.Ideal
import Idealize.ShloMosaic.Lib.ValueIdx

noncomputable section

namespace Rating

open Idealize.ShloMosaic Idealize.ShloMosaic.ValueIdx

/-- From the inner product of the two factor rows and the two biases to the rating:
    `logistic (((dot + bu) + bi) + 0.05) * 5`. -/
def squash (dot bu bi : EReal) : EReal :=
  Ideal.logistic (((dot + bu) + bi) + Ideal.ofBits .f32 0x3D4CCCCD#32) * Ideal.ofBits .f32 0x40A00000#32

/-- The rating of user `p` for item `q`: the inner product runs over the 64 latent coordinates of row `p` of the
    user factors and row `q` of the item factors. -/
def entry (pf : (⟨2, ![16384, 64]⟩ : Shape).Idx → EReal) (q1 : (⟨2, ![8192, 64]⟩ : Shape).Idx → EReal)
    (bu : (⟨1, ![16384]⟩ : Shape).Idx → EReal) (bi : (⟨1, ![8192]⟩ : Shape).Idx → EReal)
    (p : Fin 16384) (q : Fin 8192) : EReal :=
  squash (∑ k : Fin 64, pf (ix2 p k) * q1 (ix2 q k)) (bu (ix1 p)) (bi (ix1 q))

/-- The whole table of ratings, users down the rows and items along the columns. -/
def table (pf : (⟨2, ![16384, 64]⟩ : Shape).Idx → EReal) (q1 : (⟨2, ![8192, 64]⟩ : Shape).Idx → EReal)
    (bu : (⟨1, ![16384]⟩ : Shape).Idx → EReal) (bi : (⟨1, ![8192]⟩ : Shape).Idx → EReal) :
    (⟨2, ![16384, 8192]⟩ : Shape).Idx → EReal :=
  fun j => entry pf q1 bu bi ⟨(j 0).val, idx2_lt0 j⟩ ⟨(j 1).val, idx2_lt1 j⟩

/-- The table at the entry written by its coordinates. -/
theorem table_ix2 (pf : (⟨2, ![16384, 64]⟩ : Shape).Idx → EReal) (q1 : (⟨2, ![8192, 64]⟩ : Shape).Idx → EReal)
    (bu : (⟨1, ![16384]⟩ : Shape).Idx → EReal) (bi : (⟨1, ![8192]⟩ : Shape).Idx → EReal) (p : Fin 16384) (q : Fin 8192) :
    table pf q1 bu bi (ix2 p q) = entry pf q1 bu bi p q := rfl

end Rating

end
-- ==== Proof.TileScore.lean ====
/-
  One tile of the rating table, read at an entry.

  The kernel's body holds a 1024 x 64 block of user factors, a 1024 x 64 block of item factors, a 1024 x 1 column
  of user biases and a 1 x 1024 row of item biases, and stores a 1024 x 1024 tile. Its matrix product contracts
  the two blocks' last axes into a zero accumulator, so at entry (p, q) it is the sum over the 64 latent
  coordinates of (user row p) * (item row q); the roundings to bf16 on the way in are the identity on the
  extended reals. The bias column is repeated along the tile's columns and the bias row down its rows. So entry
  (p, q) of the tile is `Rating.squash` of that inner product, the user bias of row p and the item bias of
  column q.
-/
import proofs.«136729_j5703716569706_1_alg».proof.Proof.Gen.KernelIdeal.Skeleton
import proofs.«136729_j5703716569706_1_alg».proof.Proof.LibTransposedDot
import proofs.«136729_j5703716569706_1_alg».proof.Proof.LibRowOps
import proofs.«136729_j5703716569706_1_alg».proof.Proof.Rating
import Idealize.ShloMosaic.Lib.Pipeline.Value
import Idealize.ShloMosaic.Lib.ValueLayout

noncomputable section

namespace Cert.KernelIdeal.Tile

open Idealize.ShloMosaic Idealize.ShloMosaic.ValueIdx Cert.KernelIdeal Cert.KernelIdeal.Gen

/-- The body's matrix product contracts the last axis of both operands. -/
theorem dot_eq : dot_S1024x64_S1024x64_S1024x1024_1_1_0_0_n_n = DotDims.transposedRhs 1024 64 1024 := rfl

/-- The product of the two factor blocks at entry (p, q): the inner product of user row p and item row q. -/
theorem dot_apply (x0 x1 : FVec Ideal S1024x64 .f32) (h0 : S1024x64.ShapeCasts S1024x64)
    (hb : FTy.bits .bf16 < FTy.bits .f32) (p q : Fin 1024) :
    matmul dot_S1024x64_S1024x64_S1024x1024_1_1_0_0_n_n none (truncf .bf16 (shapeCast S1024x64 x0 h0) hb) (truncf .bf16 x1 hb)
        (constant (F := Ideal) S1024x1024 .f32 0x00000000#32) (ix2 p q)
      = ∑ k : Fin 64, x0 (ix2 p k) * x1 (ix2 q k) := by
  rw [shapeCast_self, dot_eq]
  exact LinkLoss.transposed_matmul_zero_apply (M := 1024) (K := 64) (N := 1024) (truncf .bf16 x0 hb) (truncf .bf16 x1 hb) none p q

/-- The user-bias column repeated along the columns: entry (p, q) is the bias of row p. -/
theorem col_apply (x2 : FVec Ideal S1024x1 .f32) (h : S1024x1.ShapeCasts S1024x1) (hB : S1024x1.Broadcasts S1024x1024)
    (p q : Fin 1024) :
    broadcastTo S1024x1024 (shapeCast S1024x1 x2 h) hB (ix2 p q) = x2 (ix2 p (0 : Fin 1)) := by
  rw [shapeCast_self]
  exact Gcn.Lib.broadcastTo_a1_ab_apply x2 hB p q

/-- The item-bias row repeated down the rows: entry (p, q) is the bias of column q. -/
theorem row_apply (x3 : FVec Ideal S1x1024 .f32) (h : S1x1024.ShapeCasts S1x1024) (hB : S1x1024.Broadcasts S1024x1024)
    (p q : Fin 1024) :
    broadcastTo S1024x1024 (shapeCast S1x1024 x3 h) hB (ix2 p q) = x3 (ix2 (0 : Fin 1) q) := by
  rw [shapeCast_self]
  exact broadcastTo_1b_ab_apply x3 hB p q

/-- THE TILE AT AN ENTRY: what the body stores at (p, q), from the four blocks it loaded. -/
theorem pay_apply (x0 x1 : Vec Ideal S1024x64 .f32) (x2 : Vec Ideal S1024x1 .f32) (x3 : Vec Ideal S1x1024 .f32)
    (p q : Fin 1024) :
    k0_pay1 (F := Ideal) x0 x1 x2 x3 (ix2 p q)
      = Rating.squash (∑ k : Fin 64, x0 (ix2 p k) * x1 (ix2 q k)) (x2 (ix2 p (0 : Fin 1))) (x3 (ix2 (0 : Fin 1) q)) := by
  unfold k0_pay1 Rating.squash
  refine congrArg₂ (· * ·) (congrArg Ideal.logistic (congrArg₂ (· + ·) (congrArg₂ (· + ·) (congrArg₂ (· + ·) ?_ ?_) ?_) rfl)) rfl
  · exact dot_apply x0 x1 _ _ p q
  · exact col_apply x2 _ _ p q
  · exact row_apply x3 _ _ p q

end Cert.KernelIdeal.Tile

end
-- ==== Proof.TileBlocks.lean ====
/-
  One tile is one block of the table.

  The grid has 16 x 8 points; point t works on block row t / 8 and block column t % 8. There it reads rows
  1024 * (t / 8) ... of the user factors and of the user-bias column, rows 1024 * (t % 8) ... of the item factors and
  columns 1024 * (t % 8) ... of the item-bias row. Entry (p, q) of the tile it computes is the table's entry
  (1024 * (t / 8) + p, 1024 * (t % 8) + q), because each operand block is the operand array read at those rows.
  Everything here is stated for arbitrary operand arrays.
-/
import proofs.«136729_j5703716569706_1_alg».proof.Proof.Gen.KernelIdeal.Frame
import proofs.«136729_j5703716569706_1_alg».proof.Proof.TileScore
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The table from the operand arrays as the tiles read them: user factors, item factors, the user biases as a
    column and the item biases as a row. -/
def tableOf (pf : S16384x64.Idx → EReal) (q1 : S8192x64.Idx → EReal) (bu2 : S16384x1.Idx → EReal)
    (bi2 : S1x8192.Idx → EReal) : S16384x8192.Idx → EReal :=
  fun j => Rating.squash
    (∑ k : Fin 64, pf (ix2 (⟨(j 0).val, idx2_lt0 j⟩ : Fin 16384) k) * q1 (ix2 (⟨(j 1).val, idx2_lt1 j⟩ : Fin 8192) k))
    (bu2 (ix2 (⟨(j 0).val, idx2_lt0 j⟩ : Fin 16384) (0 : Fin 1)))
    (bi2 (ix2 (0 : Fin 1) (⟨(j 1).val, idx2_lt1 j⟩ : Fin 8192)))

/-- Where each operand's block sits at grid point t: block row t / 8, block column t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8 :=
  (by decide +kernel : ∀ t : Fin grid0.N, _)

/-- A tile's entry is the table's entry, once each operand block is the operand array read at the right rows. -/
theorem tile_entry (pf : S16384x64.Idx → EReal) (q1 : S8192x64.Idx → EReal) (bu2 : S16384x1.Idx → EReal)
    (bi2 : S1x8192.Idx → EReal) (x0 x1 : Vec Ideal S1024x64 .f32) (x2 : Vec Ideal S1024x1 .f32) (x3 : Vec Ideal S1x1024 .f32)
    (p q : Fin 1024) (u : Fin 16384) (v : Fin 8192)
    (h0 : ∀ k : Fin 64, x0 (ix2 p k) = pf (ix2 u k)) (h1 : ∀ k : Fin 64, x1 (ix2 q k) = q1 (ix2 v k))
    (h2 : x2 (ix2 p (0 : Fin 1)) = bu2 (ix2 u (0 : Fin 1))) (h3 : x3 (ix2 (0 : Fin 1) q) = bi2 (ix2 (0 : Fin 1) v)) :
    k0_pay1 (F := Ideal) x0 x1 x2 x3 (ix2 p q) = tableOf pf q1 bu2 bi2 (ix2 u v) := by
  rw [Tile.pay_apply, h2, h3, Finset.sum_congr rfl fun k _ => by rw [h0 k, h1 k]]
  rfl

/-- The same with the two entries given as indices. -/
theorem tile_entry_idx (pf : S16384x64.Idx → EReal) (q1 : S8192x64.Idx → EReal) (bu2 : S16384x1.Idx → EReal)
    (bi2 : S1x8192.Idx → EReal) (x0 x1 : Vec Ideal S1024x64 .f32) (x2 : Vec Ideal S1024x1 .f32) (x3 : Vec Ideal S1x1024 .f32)
    (y : S1024x1024.Idx) (i : S16384x8192.Idx)
    (h0 : ∀ k : Fin 64, x0 (ix2 (⟨(y 0).val, idx2_lt0 y⟩ : Fin 1024) k) = pf (ix2 (⟨(i 0).val, idx2_lt0 i⟩ : Fin 16384) k))
    (h1 : ∀ k : Fin 64, x1 (ix2 (⟨(y 1).val, idx2_lt1 y⟩ : Fin 1024) k) = q1 (ix2 (⟨(i 1).val, idx2_lt1 i⟩ : Fin 8192) k))
    (h2 : x2 (ix2 (⟨(y 0).val, idx2_lt0 y⟩ : Fin 1024) (0 : Fin 1)) = bu2 (ix2 (⟨(i 0).val, idx2_lt0 i⟩ : Fin 16384) (0 : Fin 1)))
    (h3 : x3 (ix2 (0 : Fin 1) (⟨(y 1).val, idx2_lt1 y⟩ : Fin 1024)) = bi2 (ix2 (0 : Fin 1) (⟨(i 1).val, idx2_lt1 i⟩ : Fin 8192))) :
    k0_pay1 (F := Ideal) x0 x1 x2 x3 y = tableOf pf q1 bu2 bi2 i := by
  obtain ⟨p, q, rfl⟩ : ∃ (p q : Fin 1024), y = ix2 p q := ⟨y 0, y 1, eq_ix2 y⟩
  obtain ⟨u, v, rfl⟩ : ∃ (u : Fin 16384) (v : Fin 8192), i = ix2 u v := ⟨i 0, i 1, eq_ix2 i⟩
  exact tile_entry pf q1 bu2 bi2 x0 x1 x2 x3 p q u v h0 h1 h2 h3

/-- The user-factor window's block at point t, of any array: rows 1024 * (t / 8) ... -/
theorem read0 (A : S16384x64.Idx → EReal) (t : Fin cfg0.N) (p : Fin 1024) (k : Fin 64) (u : Fin 16384)
    (hu : u.val = t.val / 8 * 1024 + p.val) :
    ((cfg0.win 0).blk t).view.read (Elt Ideal) A (ix2 p k) = A (ix2 u k) := by
  obtain ⟨e0, e1, -⟩ := idx_facts t
  rw [View.read_apply]
  show A _ = A _
  refine congrArg A (funext fun a => Fin.ext ?_)
  match a with
  | ⟨0, _⟩ => show win0_0.index t (0 : Fin 2) * 1024 + 1 * p.val = u.val; rw [e0, hu]; omega
  | ⟨1, _⟩ => show win0_0.index t (1 : Fin 2) * 64 + 1 * k.val = k.val; rw [e1]; omega

/-- The item-factor window's block at point t, of any array: rows 1024 * (t % 8) ... -/
theorem read1 (A : S8192x64.Idx → EReal) (t : Fin cfg0.N) (q : Fin 1024) (k : Fin 64) (v : Fin 8192)
    (hv : v.val = t.val % 8 * 1024 + q.val) :
    ((cfg0.win 1).blk t).view.read (Elt Ideal) A (ix2 q k) = A (ix2 v k) := by
  obtain ⟨-, -, e0, e1, -⟩ := idx_facts t
  rw [View.read_apply]
  show A _ = A _
  refine congrArg A (funext fun a => Fin.ext ?_)
  match a with
  | ⟨0, _⟩ => show win0_1.index t (0 : Fin 2) * 1024 + 1 * q.val = v.val; rw [e0, hv]; omega
  | ⟨1, _⟩ => show win0_1.index t (1 : Fin 2) * 64 + 1 * k.val = k.val; rw [e1]; omega

/-- The user-bias window's block at point t, of any column: rows 1024 * (t / 8) ... -/
theorem read2 (A : S16384x1.Idx → EReal) (t : Fin cfg0.N) (p : Fin 1024) (u : Fin 16384)
    (hu : u.val = t.val / 8 * 1024 + p.val) :
    ((cfg0.win 2).blk t).view.read (Elt Ideal) A (ix2 p (0 : Fin 1)) = A (ix2 u (0 : Fin 1)) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1024 + 1 * p.val = u.val; rw [e0, hu]; omega
  | ⟨1, _⟩ => show win0_2.index t (1 : Fin 2) * 1 + 1 * 0 = 0; rw [e1]

/-- The item-bias window's block at point t, of any row: columns 1024 * (t % 8) ... -/
theorem read3 (A : S1x8192.Idx → EReal) (t : Fin cfg0.N) (q : Fin 1024) (v : Fin 8192)
    (hv : v.val = t.val % 8 * 1024 + q.val) :
    ((cfg0.win 3).blk t).view.read (Elt Ideal) A (ix2 (0 : Fin 1) q) = A (ix2 (0 : Fin 1) v) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 1 + 1 * 0 = 0; rw [e0]
  | ⟨1, _⟩ => show win0_3.index t (1 : Fin 2) * 1024 + 1 * q.val = v.val; rw [e1, hv]; omega

/-- THE TILE OF POINT t, of any four operand arrays, is block t of their table. -/
theorem tile_read (A0 : S16384x64.Idx → EReal) (A1 : S8192x64.Idx → EReal) (A2 : S16384x1.Idx → EReal)
    (A3 : S1x8192.Idx → EReal) (t : Fin cfg0.N) (j : S1024x1024.Idx) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) j
      = ((cfg0.win 4).blk t).view.read (Elt Ideal) (tableOf A0 A1 A2 A3) j := by
  obtain ⟨-, -, -, -, -, -, -, -, e8, e9⟩ := idx_facts t
  have hj0 : (j 0).val < 1024 := (j 0).isLt
  have hj1 : (j 1).val < 1024 := (j 1).isLt
  have hi0 : ((((cfg0.win 4).blk t).view.emb j) 0).val = t.val / 8 * 1024 + (j 0).val := by
    show win0_4.index t (0 : Fin 2) * 1024 + 1 * (j 0).val = _
    rw [e8]; omega
  have hi1 : ((((cfg0.win 4).blk t).view.emb j) 1).val = t.val % 8 * 1024 + (j 1).val := by
    show win0_4.index t (1 : Fin 2) * 1024 + 1 * (j 1).val = _
    rw [e9]; omega
  rw [View.read_apply (v := ((cfg0.win 4).blk t).view)]
  show _ = tableOf A0 A1 A2 A3 (((cfg0.win 4).blk t).view.emb j)
  exact tile_entry_idx A0 A1 A2 A3 _ _ _ _ j (((cfg0.win 4).blk t).view.emb j)
    (fun k => read0 A0 t _ k _ hi0) (fun k => read1 A1 t _ k _ hi1) (read2 A2 t _ _ hi0) (read3 A3 t _ _ hi1)

end Cert.KernelIdeal.Blocks

end
-- ==== Proof.TableCover.lean ====
/-
  The tiles cover the table.

  Point t of the 16 x 8 grid writes the 1024 x 1024 tile at block (t / 8, t % 8) of the result, and that tile is
  block t of the table of the operand arrays. The 128 tiles tile the 16384 x 8192 table: entry (r, s) lies in the
  tile of point (r / 1024) * 8 + s / 1024. So the result array ends holding the whole table.
-/
import proofs.«136729_j5703716569706_1_alg».proof.Proof.Gen.KernelIdeal.Frame
import proofs.«136729_j5703716569706_1_alg».proof.Proof.TileBlocks
import Idealize.ShloMosaic.Lib.Pipeline.Value

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- WHAT POINT t WRITES BACK is block t of the table of the operand arrays as the tiles find them. -/
theorem flushed_eq (c : Dev nD) (t : Fin cfg0.N) :
    (dats m 0 c).flushed 4 t
      = ((cfg0.win 4).blk t).view.read (Elt Ideal) (tableOf (V m c (Pipeline.arrRef spec0 0)) (V m c (Pipeline.arrRef spec0 1))
          (V m c (Pipeline.arrRef spec0 2)) (V m c (Pipeline.arrRef spec0 3))) := by
  show (cfg0.win 4).cut (grid0.coords t) ((dats m 0 c).after 4 t) = _
  rw [after0_4]
  unfold out0_4
  rw [View.canon_unit_zero hz]
  simp only [View.ld_unit_zero (S := S1024x64) hz, View.ld_unit_zero (S := S1024x1) hz, View.ld_unit_zero (S := S1x1024) hz]
  funext j
  exact tile_read (V m c (Pipeline.arrRef spec0 0)) (V m c (Pipeline.arrRef spec0 1)) (V m c (Pipeline.arrRef spec0 2))
    (V m c (Pipeline.arrRef spec0 3)) t j

/-- An index of the table is in point t's tile iff each coordinate is in the tile's range on its axis. -/
theorem mem_blk (t : Fin cfg0.N) (i : S16384x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v21).slice (win0_4.rect t)).set ↔ _
  rw [View.set_slice_whole, Rect.mem_set_unit]
  exact Iff.rfl

/-- Every entry of the table lies in some point's tile. -/
theorem cover (i : S16384x8192.Idx) :
    ∃ t : Fin cfg0.N, (cfg0.win 4).flush t = true ∧ i ∈ ((cfg0.win 4).blk t).view.set := by
  have hi0 : (i 0).val < 16384 := (i 0).isLt
  have hi1 : (i 1).val < 8192 := (i 1).isLt
  have hN : cfg0.N = 128 := N_0
  have ht : (i 0).val / 1024 * 8 + (i 1).val / 1024 < cfg0.N := by rw [hN]; omega
  obtain ⟨-, -, -, -, -, -, -, -, e8, e9⟩ := idx_facts ⟨(i 0).val / 1024 * 8 + (i 1).val / 1024, ht⟩
  refine ⟨⟨(i 0).val / 1024 * 8 + (i 1).val / 1024, ht⟩, flush0_4 _, ?_⟩
  rw [mem_blk]
  intro a
  match a with
  | ⟨0, _⟩ =>
    show win0_4.index ⟨(i 0).val / 1024 * 8 + (i 1).val / 1024, ht⟩ (0 : Fin 2) * 1024 ≤ (i 0).val
      ∧ (i 0).val < win0_4.index ⟨(i 0).val / 1024 * 8 + (i 1).val / 1024, ht⟩ (0 : Fin 2) * 1024 + 1024
    rw [e8]
    show ((i 0).val / 1024 * 8 + (i 1).val / 1024) / 8 * 1024 ≤ (i 0).val
      ∧ (i 0).val < ((i 0).val / 1024 * 8 + (i 1).val / 1024) / 8 * 1024 + 1024
    omega
  | ⟨1, _⟩ =>
    show win0_4.index ⟨(i 0).val / 1024 * 8 + (i 1).val / 1024, ht⟩ (1 : Fin 2) * 1024 ≤ (i 1).val
      ∧ (i 1).val < win0_4.index ⟨(i 0).val / 1024 * 8 + (i 1).val / 1024, ht⟩ (1 : Fin 2) * 1024 + 1024
    rw [e9]
    show ((i 0).val / 1024 * 8 + (i 1).val / 1024) % 8 * 1024 ≤ (i 1).val
      ∧ (i 1).val < ((i 0).val / 1024 * 8 + (i 1).val / 1024) % 8 * 1024 + 1024
    omega

/-- THE RESULT ARRAY after the last point: the whole table of the operand arrays as the tiles find them. -/
theorem final (c : Dev nD) :
    (dats m 0 c).arrAt 4 cfg0.N = tableOf (V m c (Pipeline.arrRef spec0 0)) (V m c (Pipeline.arrRef spec0 1))
      (V m c (Pipeline.arrRef spec0 2)) (V m c (Pipeline.arrRef spec0 3)) :=
  (dats m 0 c).arrAt_eq_of_cover 4 _ (fun t _ => flushed_eq m c t) cover

end Cert.KernelIdeal.Blocks

end
-- ==== Proof.EntryArrays.lean ====
/-
  What the kernel's operands hold when the tiles are computed.

  Before the tiles, the program prepares three arrays from its arguments: the user factors with the
  implicit-feedback term added (for each user the sum of the second item table's rows over the items that user
  touched, divided by the square root of their number, plus the user's own factors); the user biases laid out as a
  column; the item biases laid out as a row. The first is the same chain of operations the reference applies to the
  same arguments, so it is named once and never opened; the other two are reshapes of a vector.
-/
import proofs.«136729_j5703716569706_1_alg».proof.Proof.Gen.KernelIdeal.Frame
import proofs.«136729_j5703716569706_1_alg».proof.Proof.Gen.ReferenceIdeal.Read
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 2000000 in
/-- The user factors the tiles read: the implicit-feedback chain of the second item table, the user factors, the
    item list and the segment list. -/
theorem factors (c : Dev nD) :
    (V m c (Pipeline.arrRef spec0 0) : S16384x64.Idx → EReal)
      = Cert.ReferenceIdeal.Read.val_main_v18 (F := Ideal) (m ((c : Thread nD τ).loc main_arg1)) (m ((c : Thread nD τ).loc main_arg2))
          (m ((c : Thread nD τ).loc main_arg5)) (m ((c : Thread nD τ).loc main_arg6)) := by
  show StableHlo.after (List.flatten [hostOps0]) (fun b => m (c, b)) (Proc.devRef .tc main_v18) = _
  rw [List.flatten_singleton]
  after_results
  rfl

/-- The item factors the tiles read are the argument's: nothing before the tiles writes them. -/
theorem items (c : Dev nD) :
    (V m c (Pipeline.arrRef spec0 1) : S8192x64.Idx → EReal) = m ((c : Thread nD τ).loc main_arg0) :=
  V_main_arg0 m c

set_option maxHeartbeats 2000000 in
/-- The user biases as a column. -/
theorem userBias (c : Dev nD) :
    (V m c (Pipeline.arrRef spec0 2) : S16384x1.Idx → EReal) = shapeCast S16384x1 (m ((c : Thread nD τ).loc main_arg3)) shapeCasts_S16384_S16384x1 := by
  show StableHlo.after (List.flatten [hostOps0]) (fun b => m (c, b)) (Proc.devRef .tc main_v19) = _
  rw [List.flatten_singleton]
  after_results
  rfl

set_option maxHeartbeats 2000000 in
/-- The item biases as a row. -/
theorem itemBias (c : Dev nD) :
    (V m c (Pipeline.arrRef spec0 3) : S1x8192.Idx → EReal) = shapeCast S1x8192 (m ((c : Thread nD τ).loc main_arg4)) shapeCasts_S8192_S1x8192 := by
  show StableHlo.after (List.flatten [hostOps0]) (fun b => m (c, b)) (Proc.devRef .tc main_v20) = _
  rw [List.flatten_singleton]
  after_results
  rfl

end Cert.KernelIdeal.Entry

end
-- ==== Proof.KernelTable.lean ====
/-
  The kernel's program ends with the rating table.

  After the 128 tiles the result array holds the table of the operand arrays (the user factors with the
  implicit-feedback term, the item factors, the user biases as a column, the item biases as a row). A column's entry
  (p, 0) is the vector's entry p and a row's entry (0, q) is the vector's entry q, so this is `Rating.table` of
  the prepared user factors, the item factors and the two bias vectors. The one operation after the tiles gives
  the table a leading axis of extent one.
-/
import proofs.«136729_j5703716569706_1_alg».proof.Proof.Gen.KernelIdeal.Frame
import proofs.«136729_j5703716569706_1_alg».proof.Proof.TableCover
import proofs.«136729_j5703716569706_1_alg».proof.Proof.EntryArrays
import proofs.«136729_j5703716569706_1_alg».proof.Proof.LibRowOps
import Idealize.ShloMosaic.Lib.ValueLayout
import Idealize.ShloMosaic.Lib.StableHlo.Run

noncomputable section

namespace Cert.KernelIdeal.Table

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- With the biases laid out as a column and a row of the bias vectors, the tiles' table is the rating table. -/
theorem tableOf_eq (pf : S16384x64.Idx → EReal) (q1 : S8192x64.Idx → EReal) (bu : S16384.Idx → EReal) (bi : S8192.Idx → EReal)
    (hu : S16384.ShapeCasts S16384x1) (hi : S8192.ShapeCasts S1x8192) :
    Blocks.tableOf pf q1 (shapeCast S16384x1 bu hu) (shapeCast S1x8192 bi hi) = Rating.table pf q1 bu bi := by
  funext j
  obtain ⟨p, q, rfl⟩ : ∃ (p : Fin 16384) (q : Fin 8192), j = ix2 p q := ⟨j 0, j 1, eq_ix2 j⟩
  show Rating.squash _ (shapeCast S16384x1 bu hu (ix2 p (0 : Fin 1))) (shapeCast S1x8192 bi hi (ix2 (0 : Fin 1) q))
    = Rating.squash _ (bu (ix1 p)) (bi (ix1 q))
  rw [Gcn.Lib.shapeCast_a_a1_apply bu hu p 0, shapeCast_a_1a_apply bi hi 0 q]

/-- The user factors the reference prepares, of the kernel's arguments. -/
abbrev factors (c : Dev nD) : S16384x64.Idx → EReal :=
  Cert.ReferenceIdeal.Read.val_main_v18 (F := Ideal) (m ((c : Thread nD τ).loc main_arg1)) (m ((c : Thread nD τ).loc main_arg2))
    (m ((c : Thread nD τ).loc main_arg5)) (m ((c : Thread nD τ).loc main_arg6))

/-- A table given a leading axis of extent one. -/
abbrev lead (x : S16384x8192.Idx → EReal) : S1x16384x8192.Idx → EReal :=
  broadcastInDim S1x16384x8192 (![1, 2] : Fin S16384x8192.rank → Fin S1x16384x8192.rank)
    bcast_S16384x8192_S1x16384x8192_1_2 x

/-- The program's result: the rating table of the arguments, with a leading unit axis. -/
abbrev result (c : Dev nD) : S1x16384x8192.Idx → EReal :=
  lead (Rating.table (factors m c) (m ((c : Thread nD τ).loc main_arg0)) (m ((c : Thread nD τ).loc main_arg3))
    (m ((c : Thread nD τ).loc main_arg4)))

/-- What the operation after the tiles leaves in the result buffer. -/
theorem tail_eq (c : Dev nD) :
    Pipeline.afterTail₀ cfgs (dats m) 0 (V0 m) [hostOps1] c main_v22 = result m c := by
  unfold Pipeline.afterTail₀
  show StableHlo.after hostOps1 _ (Proc.devRef .tc main_v22) = _
  after_results
  refine congrArg lead ?_
  refine ((Pipeline.withArrays_arr spec0 launch0.win.arr_inj c _ _ 4).trans (Blocks.final m c)).trans ?_
  rw [Entry.factors, Entry.items, Entry.userBias, Entry.itemBias]
  exact tableOf_eq _ _ _ _ _ _

/-- THE KERNEL'S RUN: it terminates with the result buffer at the rating table and the arguments unchanged. -/
theorem run : θ_run defs (onTc (τ := τ) (main (F := Ideal))) ⟨m, fun _ => 0, ρ⟩ (fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v22 (Pipeline.mem_restRefs_of main_v22 (by decide) (by decide))).trans (tail_eq m c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Table

end
-- ==== Proof.RefTable.lean ====
/-
  The reference computes the rating table.

  After preparing the user factors, the reference takes the product of the user factors with the transposed item
  factors (entry (p, q): the sum over the 64 latent coordinates of user row p times item row q), adds the user
  biases repeated along the columns, the item biases repeated down the rows and the global mean, and applies
  `1 / (1 + exp (-z))` and the factor 5. On the extended reals `1 / (1 + exp (-z))` IS the logistic function, at
  the infinities too (both are defined by that expression), and the f32 word 0x3F800000 denotes 1. So the
  reference's table is `Rating.table` of its prepared user factors, the item factors and the two bias vectors.
-/
import proofs.«136729_j5703716569706_1_alg».proof.Proof.Gen.ReferenceIdeal.Read
import proofs.«136729_j5703716569706_1_alg».proof.Proof.Rating

noncomputable section

namespace Cert.ReferenceIdeal.RefTable

open Idealize.ShloMosaic Idealize.ShloMosaic.ValueIdx Cert.ReferenceIdeal Cert.ReferenceIdeal.Read

/-- The f32 word 0x3F800000 denotes the number 1. -/
theorem one_word : Ideal.ofBits .f32 0x3F800000#32 = (1 : EReal) := by
  simp [Ideal.ofBits, Ideal.ieee, -EReal.coe_mul]; norm_num

/-- The product's left operand at entry (p, q) and latent coordinate k is the user factors' (p, k). -/
theorem lidx_eq (p : Fin 16384) (q : Fin 8192) (k : Fin 64) : lidx_main_v19 (ix2 p q) k = ix2 p k :=
  funext fun a => match a with | ⟨0, _⟩ => rfl | ⟨1, _⟩ => rfl

/-- Its right operand there is the item factors' (q, k). -/
theorem ridx_eq (p : Fin 16384) (q : Fin 8192) (k : Fin 64) : ridx_main_v19 (ix2 p q) k = ix2 q k :=
  funext fun a => match a with | ⟨0, _⟩ => rfl | ⟨1, _⟩ => rfl

/-- The user bias read at entry (p, q) is the bias of user p. -/
theorem ubias_idx (p : Fin 16384) (q : Fin 8192) : idx_main_v20 (idx_main_v21 (ix2 p q)) = ix1 p :=
  funext fun a => match a with | ⟨0, _⟩ => rfl

/-- The item bias read at entry (p, q) is the bias of item q. -/
theorem ibias_idx (p : Fin 16384) (q : Fin 8192) : idx_main_v23 (idx_main_v24 (ix2 p q)) = ix1 q :=
  funext fun a => match a with | ⟨0, _⟩ => rfl

/-- The reference's table at entry (p, q) is the rating of user p for item q. -/
theorem entry_eq (x0 x1 : (⟨S8192x64, .f32⟩ : BufTy).Contents (Elt Ideal)) (x2 : (⟨S16384x64, .f32⟩ : BufTy).Contents (Elt Ideal))
    (x3 : (⟨S16384, .f32⟩ : BufTy).Contents (Elt Ideal)) (x4 : (⟨S8192, .f32⟩ : BufTy).Contents (Elt Ideal))
    (x5 x6 : (⟨S1048576, .i32⟩ : BufTy).Contents (Elt Ideal)) (p : Fin 16384) (q : Fin 8192) :
    val_main_v35 (F := Ideal) x0 x1 x2 x3 x4 x5 x6 (ix2 p q) = Rating.entry (val_main_v18 (F := Ideal) x1 x2 x5 x6) x0 x3 x4 p q := by
  rw [val_main_v35_apply, val_main_v33_apply, val_main_v31_apply, val_main_v29_apply, val_main_v28_apply,
    val_main_v27_apply, val_main_v25_apply, val_main_v22_apply, val_main_v19_apply, val_main_v21_apply, val_main_v20_apply,
    val_main_v24_apply, val_main_v23_apply, val_main_v26_apply, val_main_cst_3_apply, val_main_v30_apply, val_main_cst_4_apply,
    val_main_v32_apply, val_main_cst_5_apply, val_main_v34_apply, val_main_cst_6_apply, ubias_idx, ibias_idx]
  simp only [lidx_eq, ridx_eq, Ideal.ofBits_def, one_word, Ideal.mulf_def, Ideal.hostDivf_def, Ideal.addf_def,
    Ideal.hostUnary_exp_def, Ideal.hostNegf_def, Ideal.negf_def, Rating.entry, Rating.squash, Ideal.logistic]

/-- THE REFERENCE'S TABLE is the rating table of its prepared user factors. -/
theorem table_eq (x0 x1 : (⟨S8192x64, .f32⟩ : BufTy).Contents (Elt Ideal)) (x2 : (⟨S16384x64, .f32⟩ : BufTy).Contents (Elt Ideal))
    (x3 : (⟨S16384, .f32⟩ : BufTy).Contents (Elt Ideal)) (x4 : (⟨S8192, .f32⟩ : BufTy).Contents (Elt Ideal))
    (x5 x6 : (⟨S1048576, .i32⟩ : BufTy).Contents (Elt Ideal)) :
    val_main_v35 (F := Ideal) x0 x1 x2 x3 x4 x5 x6 = Rating.table (val_main_v18 (F := Ideal) x1 x2 x5 x6) x0 x3 x4 := by
  funext j
  obtain ⟨p, q, rfl⟩ : ∃ (p : Fin 16384) (q : Fin 8192), j = ix2 p q := ⟨j 0, j 1, eq_ix2 j⟩
  exact entry_eq x0 x1 x2 x3 x4 x5 x6 p q

end Cert.ReferenceIdeal.RefTable

end
-- ==== Proof.lean ====
/-
  A rating predictor from latent factors: the kernel against its reference, on the extended reals.

  Both programs first add to each user's factors the implicit-feedback term (the sum of the second item table's rows
  over the items the user touched, divided by the square root of their number): the same chain of operations on the
  same arguments, carried as one function and never opened. The rating of user u for item i is then

      logistic (((<user row u, item row i> + bu u) + bi i) + 0.05) * 5.

  The kernel computes it tile by tile: a grid of 16 x 8 points, each taking a 1024-row block of user factors and a
  1024-row block of item factors, contracting their 64 latent coordinates in a matrix product into a zero
  accumulator, adding the bias column, the bias row and the mean, and applying the logistic function. The
  reference takes the whole product at once and spells the logistic function as 1 / (1 + exp (-z)), which is its
  definition on the extended reals. Entry by entry the two are the same sum of the same 64 products followed by the
  same additions in the same order, so no law beyond re-indexing the contraction is used and the inputs' finiteness
  is not needed.

  Modules: Rating (the specification), TileScore (one tile at an entry), TileBlocks (the tiles cover the table),
  EntryArrays (what the tiles' operands hold), KernelTable (the kernel's run), RefTable (the reference's table).
-/
import proofs.«136729_j5703716569706_1_alg».proof.Defs
import proofs.«136729_j5703716569706_1_alg».proof.Proof.Gen.Kernel
import proofs.«136729_j5703716569706_1_alg».proof.Proof.Gen.Kernel.Skeleton
import proofs.«136729_j5703716569706_1_alg».proof.Proof.Gen.Kernel.Launch
import proofs.«136729_j5703716569706_1_alg».proof.Proof.Gen.Kernel.Points
import proofs.«136729_j5703716569706_1_alg».proof.Proof.Gen.Kernel.Frame
import proofs.«136729_j5703716569706_1_alg».proof.Proof.Gen.KernelIdeal
import proofs.«136729_j5703716569706_1_alg».proof.Proof.Gen.KernelIdeal.Skeleton
import proofs.«136729_j5703716569706_1_alg».proof.Proof.Gen.KernelIdeal.Launch
import proofs.«136729_j5703716569706_1_alg».proof.Proof.Gen.KernelIdeal.Points
import proofs.«136729_j5703716569706_1_alg».proof.Proof.Gen.KernelIdeal.Frame
import proofs.«136729_j5703716569706_1_alg».proof.Proof.Gen.ReferenceIdeal
import proofs.«136729_j5703716569706_1_alg».proof.Proof.Gen.Pre_finite_inputs
import proofs.«136729_j5703716569706_1_alg».proof.Proof.Gen.ReferenceIdeal.Run
import proofs.«136729_j5703716569706_1_alg».proof.Proof.Gen.ReferenceIdeal.Read
import proofs.«136729_j5703716569706_1_alg».proof.Proof.KernelTable
import proofs.«136729_j5703716569706_1_alg».proof.Proof.RefTable
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the rating table of the arguments (with its leading unit axis). -/
theorem algebraic : Cert.algebraic_KernelIdeal_ReferenceIdeal := by
  intro m ρ m' ρ' _ hagree
  refine ⟨fun c => Cert.KernelIdeal.Table.result m c, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v36_eq, a0, a1, a2, a3, a4, a5, a6]
  unfold Cert.ReferenceIdeal.Read.val_main_v36
  rw [Cert.ReferenceIdeal.RefTable.table_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
